-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x128x128x128 : Shape := ⟨5, ![8, 1, 128, 128, 128]⟩
abbrev S_ : Shape := ⟨0, ![]⟩

class Facts : Prop where
  bcast_S_S8x1x128x128x128 : S_.BroadcastsInDim S8x1x128x128x128 (![] : Fin 0 → Fin S8x1x128x128x128.rank)
  reducesTo_S8x1x128x128x128_S_d0_1_2_3_4 : S8x1x128x128x128.ReducesTo [0, 1, 2, 3, 4] S_
  h_S_ : 0 < S_.numel

variable [Facts]

def fn {F : FTy → Type} [FloatOps F] (main_arg0 : FVec F S8x1x128x128x128 .f32) (main_arg1 : FVec F S8x1x128x128x128 .f32) : IVec S_ 1 :=
  let main_v0 : FVec F S8x1x128x128x128 .f32 := Host.absf main_arg0
  let main_cst : FVec F S_ .f32 := constant S_ .f32 0x7F800000#32
  let main_v1 : FVec F S8x1x128x128x128 .f32 := broadcastInDim S8x1x128x128x128 ![] bcast_S_S8x1x128x128x128 main_cst
  let main_v2 : IVec S8x1x128x128x128 1 := cmpf .olt main_v0 main_v1
  let main_c : IVec S_ 1 := constantI S_ 1 1#1
  let main_v3 : IVec S_ 1 := (fun x v => Host.reduce IntOp.andi x v reducesTo_S8x1x128x128x128_S_d0_1_2_3_4 h_S_) main_v2 main_c
  let main_v4 : FVec F S8x1x128x128x128 .f32 := Host.absf main_arg1
  let main_cst_0 : FVec F S_ .f32 := constant S_ .f32 0x7F800000#32
  let main_v5 : FVec F S8x1x128x128x128 .f32 := broadcastInDim S8x1x128x128x128 ![] bcast_S_S8x1x128x128x128 main_cst_0
  let main_v6 : IVec S8x1x128x128x128 1 := cmpf .olt main_v4 main_v5
  let main_c_1 : IVec S_ 1 := constantI S_ 1 1#1
  let main_v7 : IVec S_ 1 := (fun x v => Host.reduce IntOp.andi x v reducesTo_S8x1x128x128x128_S_d0_1_2_3_4 h_S_) main_v6 main_c_1
  let main_v8 : IVec S_ 1 := andi main_v3 main_v7
  main_v8
-- ==== Kernel.lean ====
abbrev S8x1x128x128x128 : Shape := ⟨5, ![8, 1, 128, 128, 128]⟩
abbrev S131072x128 : Shape := ⟨2, ![131072, 128]⟩
abbrev S1x256 : Shape := ⟨2, ![1, 256]⟩
abbrev S8192x128 : Shape := ⟨2, ![8192, 128]⟩
abbrev S1x128 : Shape := ⟨2, ![1, 128]⟩
abbrev S128 : Shape := ⟨1, ![128]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S8x1x128x128x128, .f32⟩
  | .hbm, ⟨1, _⟩ => ⟨S8x1x128x128x128, .f32⟩
  | .hbm, ⟨2, _⟩ => ⟨S131072x128, .f32⟩
  | .hbm, ⟨3, _⟩ => ⟨S131072x128, .f32⟩
  | .hbm, ⟨4, _⟩ => ⟨S1x256, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x128, .f32⟩
  | .local _ .vmem, ⟨5, _⟩ => ⟨S1x128, .f32⟩
  | _, _ => ⟨S8x1x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x1x128x128x128_S131072x128 : S8x1x128x128x128.ShapeCasts S131072x128
  inb_S1x128_S1x128_0_0 : ∀ a, (![0, 0] : Fin 2 → Nat) a + S1x128.size a ≤ S1x128.size a
  h_S1x128 : 0 < S1x128.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  natLt_1_32 : 1 < 32
  reduces_S8192x128_S128 : S8192x128.Reduces [0] S128
  shapeCasts_S128_S1x128 : S128.ShapeCasts S1x128
  shapeCasts_S1x128_S1x128 : S1x128.ShapeCasts S1x128
  reducesTo_S1x256_S_d0_1 : S1x256.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x256.size a
  hwx0_2 : ∀ i : grid0.Coords, EltTy.bits .f32 = 32 ∨ (Rect.block (s := S1x256) S1x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1x128x128x128 : Shape := ⟨5, ![8, 1, 128, 128, 128]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S8x1x128x128x128, .f32⟩
  | .hbm, ⟨1, _⟩ => ⟨S8x1x128x128x128, .f32⟩
  | .hbm, ⟨2, _⟩ => ⟨S8x1x128x128x128, .f32⟩
  | .hbm, ⟨3, _⟩ => ⟨S8x1x128x128x128, .f32⟩
  | .hbm, ⟨4, _⟩ => ⟨S_, .f32⟩
  | .hbm, ⟨5, _⟩ => ⟨S8x1x128x128x128, .f32⟩
  | .hbm, ⟨6, _⟩ => ⟨S8x1x128x128x128, .f32⟩
  | .hbm, ⟨7, _⟩ => ⟨S_, .f32⟩
  | .hbm, ⟨8, _⟩ => ⟨S8x1x128x128x128, .f32⟩
  | .hbm, ⟨9, _⟩ => ⟨S8x1x128x128x128, .f32⟩
  | .hbm, ⟨10, _⟩ => ⟨S_, .f32⟩
  | .hbm, ⟨11, _⟩ => ⟨S8x1x128x128x128, .f32⟩
  | .hbm, ⟨12, _⟩ => ⟨S8x1x128x128x128, .i1⟩
  | .hbm, ⟨13, _⟩ => ⟨S_, .f32⟩
  | .hbm, ⟨14, _⟩ => ⟨S8x1x128x128x128, .f32⟩
  | .hbm, ⟨15, _⟩ => ⟨S8x1x128x128x128, .i1⟩
  | .hbm, ⟨16, _⟩ => ⟨S8x1x128x128x128, .i1⟩
  | .hbm, ⟨17, _⟩ => ⟨S8x1x128x128x128, .i1⟩
  | .hbm, ⟨18, _⟩ => ⟨S8x1x128x128x128, .f32⟩
  | .hbm, ⟨19, _⟩ => ⟨S8x1x128x128x128, .i1⟩
  | .hbm, ⟨20, _⟩ => ⟨S8x1x128x128x128, .i1⟩
  | .hbm, ⟨21, _⟩ => ⟨S8x1x128x128x128, .f32⟩
  | .hbm, ⟨22, _⟩ => ⟨S_, .f32⟩
  | .hbm, ⟨23, _⟩ => ⟨S8x1x128x128x128, .f32⟩
  | .hbm, ⟨24, _⟩ => ⟨S8x1x128x128x128, .f32⟩
  | .hbm, ⟨25, _⟩ => ⟨S8x1x128x128x128, .f32⟩
  | .hbm, ⟨26, _⟩ => ⟨S8x1x128x128x128, .f32⟩
  | .hbm, ⟨27, _⟩ => ⟨S8x1x128x128x128, .f32⟩
  | .hbm, ⟨28, _⟩ => ⟨S8x1x128x128x128, .f32⟩
  | .hbm, ⟨29, _⟩ => ⟨S8x1x128x128x128, .f32⟩
  | .hbm, ⟨30, _⟩ => ⟨S8x1x128x128x128, .f32⟩
  | .hbm, ⟨31, _⟩ => ⟨S8x1x128x128x128, .f32⟩
  | .hbm, ⟨32, _⟩ => ⟨S_, .f32⟩
  | .hbm, ⟨33, _⟩ => ⟨S8x1x128x128x128, .f32⟩
  | .hbm, ⟨34, _⟩ => ⟨S8x1x128x128x128, .f32⟩
  | .hbm, ⟨35, _⟩ => ⟨S_, .f32⟩
  | .hbm, ⟨36, _⟩ => ⟨S8x1x128x128x128, .f32⟩
  | .hbm, ⟨37, _⟩ => ⟨S8x1x128x128x128, .f32⟩
  | .hbm, ⟨38, _⟩ => ⟨S_, .f32⟩
  | .hbm, ⟨39, _⟩ => ⟨S8x1x128x128x128, .f32⟩
  | .hbm, ⟨40, _⟩ => ⟨S8x1x128x128x128, .f32⟩
  | .hbm, ⟨41, _⟩ => ⟨S8x1x128x128x128, .f32⟩
  | .hbm, ⟨42, _⟩ => ⟨S8x1x128x128x128, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S8x1x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  bcast_S_S8x1x128x128x128 : S_.BroadcastsInDim S8x1x128x128x128 (![] : Fin 0 → Fin S8x1x128x128x128.rank)
  reducesTo_S8x1x128x128x128_S_d0_1_2_3_4 : S8x1x128x128x128.ReducesTo [0, 1, 2, 3, 4] S_
  h_S_ : 0 < S_.numel

variable [Facts₀]

class Facts : Prop extends Facts₀ where

variable [Facts]
-- ==== Proof.KernelCases.lean ====
/-
  What one run of the kernel body leaves in the accumulator block.

  The body computes, from the two input tiles, the row of 128 column sums of the elements' values (the tile's
  partial sums), and adds it to the accumulator block. At the first step of a core's range it first stores zeros
  and reads them back, so it leaves 0 + partial; at every other step it leaves (what the step before left) + partial.
-/
import proofs.«112153_j12953621365099_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-- A step that is not the first of its core's range: the accumulator block holding `acc` ends at
    `acc + partial`, the partial sums being those of the two input tiles. -/
theorem out_later (c : Dev nD) (i : grid0.Coords) (a2 : Memref sig .tc .vmem S8192x128 .f32) (h2 : a2.IsWhole)
    (a3 : Memref sig .tc .vmem S8192x128 .f32) (h3 : a3.IsWhole) (a4 : Memref sig .tc .vmem S1x128 .f32) (h4 : a4.IsWhole)
    (hc : ¬cond0_0 i) (x0 x1 : Vec F S8192x128 .f32) (acc : Vec F S1x128 .f32) :
    out0_B_2 c i a2 h2 a3 h3 a4 h4 hc x0 x1 acc = k0_pay1 (k0_pay3 x0 x1) acc := by
  unfold out0_B_2
  rw [View.read_writes_eq_canon _ _ _ (cover0_B_2 c i a2 h2 a3 h3 a4 h4 hc x0 x1 acc)]
  unfold kernelRun0_B
  dsimp only
  sl_unfold_words
  rw [View.canon_unit_zero hz]
  simp only [View.readAt_eq_ld, h2.read_unread, h3.read_unread, h4.read_unread, View.ld_unit_zero (S := S8192x128) hz,
    View.ld_unit_zero (S := S1x128) hz]

/-- The first step of a core's range: the body stores the zero block, reads it back, and leaves
    `0 + partial`. -/
theorem out_first (c : Dev nD) (i : grid0.Coords) (a2 : Memref sig .tc .vmem S8192x128 .f32) (h2 : a2.IsWhole)
    (a3 : Memref sig .tc .vmem S8192x128 .f32) (h3 : a3.IsWhole) (a4 : Memref sig .tc .vmem S1x128 .f32) (h4 : a4.IsWhole)
    (hc : cond0_0 i) (x0 x1 : Vec F S8192x128 .f32) :
    out0_A_2 c i a2 h2 a3 h3 a4 h4 hc x0 x1 = k0_pay1 (k0_pay3 x0 x1) (k0_pay2 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x128) hz, View.readCov_unit_zero (S := S1x128) _ hz]
  simp only [View.readAt_eq_ld, h2.read_unread, h3.read_unread, View.ld_unit_zero (S := S8192x128) hz,
    View.ld_unit_zero (S := S1x128) hz]

end Cert.KernelIdeal.Cases

end
-- ==== Proof.Consts.lean ====
/-
  The float literals the two programs spell, as the extended reals their binary words denote: one, one half,
  and the element count 2^24 with its reciprocal 2^-24 (both exact binary values: the kernel scales its sum by
  the word of 2^-24 where the reference divides by the word of 2^24). All unfolding of the IEEE reading of a word
  happens in this one module; the other modules cite these equations.
-/
import Idealize.ShloMosaic.PureOps.Ideal

noncomputable section

namespace Cert.Consts

open Idealize.ShloMosaic

/-- The word of `1.0` denotes `1`. -/
theorem ofBits_one : Ideal.ofBits .f32 0x3F800000#32 = 1 := by
  simp [Ideal.ofBits, Ideal.ieee, -EReal.coe_mul]; norm_num

/-- The word of `0.5` denotes the real `1/2`. -/
theorem ofBits_half : Ideal.ofBits .f32 0x3F000000#32 = ((1 / 2 : ℝ) : EReal) := by
  simp [Ideal.ofBits, Ideal.ieee, -EReal.coe_mul]; norm_num

/-- The reference's divisor, the word of `16777216.0`, denotes the real `2^24`. -/
theorem ofBits_count : Ideal.ofBits .f32 0x4B800000#32 = ((16777216 : ℝ) : EReal) := by
  simp [Ideal.ofBits, Ideal.ieee, -EReal.coe_mul]; norm_num

/-- The kernel's scale, the word `0x33800000`, denotes exactly the reciprocal `1 / 2^24`. -/
theorem ofBits_inv_count : Ideal.ofBits .f32 0x33800000#32 = ((1 / 16777216 : ℝ) : EReal) := by
  simp [Ideal.ofBits, Ideal.ieee, -EReal.coe_mul]; norm_num

end Cert.Consts

end
-- ==== Proof.LibLogisticMask.lean ====
/-
  General facts, free of any kernel's shapes or literals.

  On the extended reals the logistic function 1 / (1 + exp (-x)), with the conventions exp (-inf) = 0, exp (+inf) = +inf,
  1 / +inf = 0, exceeds one half exactly when x is positive: a threshold on a sigmoid at 1/2 is a sign test on the logit.

  A one-bit truth value is 0 or 1; turned into a float by widening it to 32 bits and reading it signed, or by reading
  the one bit unsigned, it is the same number; and exclusive-or with the true bit is negation.
-/
import Idealize.ShloMosaic.PureOps.Ideal
import Idealize.ShloMosaic.PureOps.Ideal.Laws

noncomputable section

namespace Cert.LibLogisticMask

open Idealize.ShloMosaic

/-- The logistic of x exceeds one half exactly when x is positive, on every extended real. -/
theorem half_lt_logistic_iff (x : EReal) :
    ((1 / 2 : ℝ) : EReal) < Ideal.div 1 (1 + Ideal.exp (-x)) ↔ 0 < x := by
  induction x using EReal.rec with
  | bot =>
    rw [EReal.neg_bot, Ideal.exp_top, EReal.add_top_of_ne_bot (by decide)]
    unfold Ideal.div
    rw [if_neg EReal.top_ne_zero, EReal.inv_top, mul_zero]
    constructor
    · intro h; exact absurd h (by rw [← EReal.coe_zero, EReal.coe_lt_coe_iff]; norm_num)
    · intro h; exact absurd h (not_lt_bot)
  | top =>
    rw [EReal.neg_top, Ideal.exp_bot, add_zero]
    unfold Ideal.div
    rw [if_neg one_ne_zero, inv_one, mul_one]
    constructor
    · intro _; exact EReal.zero_lt_top
    · intro _; rw [← EReal.coe_one, EReal.coe_lt_coe_iff]; norm_num
  | coe r =>
    have hpos : (0 : ℝ) < 1 + Real.exp (-r) := by positivity
    rw [← EReal.coe_neg, Ideal.exp_coe, ← EReal.coe_one, ← EReal.coe_add, Ideal.div_coe (ne_of_gt hpos),
      EReal.coe_one, one_mul, EReal.coe_lt_coe_iff, EReal.coe_pos,
      one_div_lt_one_div (by norm_num) hpos]
    constructor
    · intro h
      have h1 : Real.exp (-r) < 1 := by linarith
      have := Real.exp_lt_one_iff.mp h1
      linarith
    · intro h
      have h1 : Real.exp (-r) < 1 := Real.exp_lt_one_iff.mpr (by linarith)
      linarith

/-- A one-bit truth value is 0 or 1. -/
theorem bit_cases (b : BitVec 1) : b = 0#1 ∨ b = 1#1 := by
  by_cases h : b = 1#1
  · exact Or.inr h
  · refine Or.inl ?_
    have hlt : b.toNat < 2 := b.isLt
    apply BitVec.eq_of_toNat_eq
    have : b.toNat ≠ 1 := fun e => h (BitVec.eq_of_toNat_eq e)
    show b.toNat = 0
    omega

/-- Widened to 32 bits and read signed, or read unsigned as it is, a truth value is the same number. -/
theorem mask_signed_eq_unsigned (b : BitVec 1) :
    FloatOps.sitofp (F := Ideal) .f32 (b.setWidth 32) = FloatOps.uitofp (F := Ideal) .f32 b := by
  show (((b.setWidth 32).toInt : ℝ) : EReal) = ((b.toNat : ℝ) : EReal)
  rcases bit_cases b with rfl | rfl
  · have e : ((0#1 : BitVec 1).setWidth 32).toInt = 0 := by decide
    rw [e]; rfl
  · have e : ((1#1 : BitVec 1).setWidth 32).toInt = 1 := by decide
    rw [e]; rfl

/-- Exclusive-or with the true bit is negation. -/
theorem xor_true_eq_not (b : BitVec 1) : IntOp.xori b 1#1 = ~~~b := by
  rcases bit_cases b with rfl | rfl <;> decide

end Cert.LibLogisticMask

end
-- ==== Proof.Term.lean ====
/-
  The value of one element, in the two spellings the programs use, and the law that joins them.

  With x a logit and t a target, both programs compute

      (max x 0 - x * t + log (1 + exp (-|x|))) * (1 + 1/2 * [t > 1/2 and not p] + 1/2 * [p and not (t > 1/2)])

  where the kernel takes p to be "x > 0" and the reference takes p to be "1 / (1 + exp (-x)) > 1/2".
  On the extended reals these are the same predicate: 1 / (1 + e) exceeds 1/2 exactly when e < 1, that is when
  -x < 0; at x = -inf the quotient is 1 / +inf = 0 and at x = +inf it is 1 / 1 = 1. The other differences are
  spelling: the kernel writes -|x| as 0 - |x|, and turns a truth value into 0 or 1 by widening it to a 32-bit
  integer read signed where the reference reads the one bit unsigned.
-/
import Idealize.ShloMosaic.PureOps.Ideal
import Idealize.ShloMosaic.PureOps.Ideal.Laws
import proofs.«112153_j12953621365099_2_alg».proof.Proof.Consts
import proofs.«112153_j12953621365099_2_alg».proof.Proof.LibLogisticMask

noncomputable section

namespace Cert.Term

open Idealize.ShloMosaic Cert.LibLogisticMask

/-- The three literals of the element's formula: zero, one half, one. -/
abbrev Z : Ideal .f32 := FloatOps.ofBits .f32 0x00000000#32
abbrev H : Ideal .f32 := FloatOps.ofBits .f32 0x3F000000#32
abbrev O : Ideal .f32 := FloatOps.ofBits .f32 0x3F800000#32

/-- The kernel's prediction bit: x > 0. -/
def kpred (x : Ideal .f32) : BitVec 1 := FloatOps.cmpf .ogt x Z
/-- The reference's prediction bit: 1 / (1 + exp (-x)) > 1/2. -/
def rpred (x : Ideal .f32) : BitVec 1 :=
  FloatOps.cmpf .ogt (FloatOps.hostDivf O (FloatOps.addf O (FloatOps.hostUnary .exp (FloatOps.hostNegf x)))) H
/-- The target bit: t > 1/2 (the same in both programs). -/
def tbit (t : Ideal .f32) : BitVec 1 := FloatOps.cmpf .ogt t H

/-- One element's value as the kernel spells it. -/
def kterm (x t : Ideal .f32) : Ideal .f32 :=
  FloatOps.mulf
    (FloatOps.addf (FloatOps.subf (FloatOps.maximumf x Z) (FloatOps.mulf x t))
      (FloatOps.log1p (FloatOps.exp (FloatOps.subf Z (FloatOps.absf x)))))
    (FloatOps.addf
      (FloatOps.addf O (FloatOps.mulf H (FloatOps.sitofp .f32
        ((IntOp.andi (tbit t) (IntOp.xori (kpred x) 1#1)).setWidth 32))))
      (FloatOps.mulf H (FloatOps.sitofp .f32
        ((IntOp.andi (kpred x) (IntOp.xori (tbit t) 1#1)).setWidth 32))))

/-- One element's value as the reference spells it. -/
def rterm (x t : Ideal .f32) : Ideal .f32 :=
  FloatOps.mulf
    (FloatOps.addf (FloatOps.subf (FloatOps.maximumf x Z) (FloatOps.mulf x t))
      (FloatOps.hostUnary .log1p (FloatOps.hostUnary .exp (FloatOps.hostNegf (FloatOps.hostAbsf x)))))
    (FloatOps.addf
      (FloatOps.addf O (FloatOps.mulf H (FloatOps.uitofp .f32 (IntOp.andi (tbit t) (~~~(rpred x))))))
      (FloatOps.mulf H (FloatOps.uitofp .f32 (IntOp.andi (rpred x) (~~~(tbit t))))))

/-- So the two prediction bits are one bit. -/
theorem rpred_eq_kpred (x : Ideal .f32) : rpred x = kpred x := by
  show Ideal.cmp .ogt (Ideal.div (Ideal.ofBits .f32 0x3F800000#32)
      (Ideal.ofBits .f32 0x3F800000#32 + Ideal.exp (-x))) (Ideal.ofBits .f32 0x3F000000#32)
    = Ideal.cmp .ogt x (Ideal.ofBits .f32 0x00000000#32)
  rw [Cert.Consts.ofBits_one, Cert.Consts.ofBits_half, Ideal.ofBits_zero_f32]
  unfold Ideal.cmp
  exact congrArg BitVec.ofBool (decide_eq_decide.mpr (half_lt_logistic_iff x))

/-- Zero minus the absolute value is its negation. -/
theorem zero_sub_abs (x : Ideal .f32) :
    FloatOps.subf Z (FloatOps.absf x) = FloatOps.hostNegf (FloatOps.hostAbsf x) := by
  show Ideal.ofBits .f32 0x00000000#32 - max x (-x) = -(max x (-x))
  rw [Ideal.ofBits_zero_f32, zero_sub]

/-- THE LAW: the reference's spelling of an element's value is the kernel's. -/
theorem rterm_eq_kterm (x t : Ideal .f32) : rterm x t = kterm x t := by
  unfold rterm kterm
  rw [rpred_eq_kpred, mask_signed_eq_unsigned, mask_signed_eq_unsigned, xor_true_eq_not, xor_true_eq_not, zero_sub_abs]
  rfl

end Cert.Term

end
-- ==== Proof.KernelAccum.lean ====
/-
  The accumulator block, point by point, on the extended reals.

  A tile's partial sums: lane l of the row the body computes is the sum, over the tile's 8192 rows r, of the value
  of element (r, l). The accumulator after grid point n therefore holds, at each lane, the sum of the partial sums
  of the tiles since the last reset: the points n - n % 8, ..., n (a reset happens at the points divisible by 8,
  where the block is zeroed first). This is an induction on the point.
-/
import proofs.«112153_j12953621365099_2_alg».proof.Proof.KernelCases
import proofs.«112153_j12953621365099_2_alg».proof.Proof.Term
import Idealize.ShloMosaic.PureOps.Ideal.Laws
import Idealize.ShloMosaic.Lib.ValueIdx
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Cases Cert.Term

/-- Column sums of an 8192 x 128 vector, stored as a 1 x 128 row: lane l is the sum over the rows r of entry (r, l). -/
theorem colsum_apply (src : FVec Ideal S8192x128 .f32) (h : S8192x128.Reduces [0] S128) (hφ : FKind.Formats .f32)
    (hacc : (0x00000000#32 : BitVec 32) = 0x00000000#32) (hc : S128.ShapeCasts S1x128) (y : S1x128.Idx) :
    shapeCast S1x128 (multiReduction .add [0] S128 src 0x00000000#32 h hφ hacc) hc y
      = ∑ r : Fin 8192, src (ix2 r (y 1)) := by
  have hk : (S128.rowMajor (ix1 (y 1))).val = (S1x128.rowMajor y).val := by
    rw [Shape.rowMajor_val_one, Shape.rowMajor_val_two]
    have h0 := idx2_lt0 y
    show (y 1).val = (y 0).val * 128 + (y 1).val
    omega
  rw [shapeCast_apply _ hc y (ix1 (y 1)) hk]
  refine (Ideal.multiReduction_add_single src 0x00000000#32 h hφ hacc (ix1 (y 1))).trans ?_
  refine Finset.sum_congr rfl fun k _ => congrArg src ?_
  funext a
  match a with
  | ⟨0, _⟩ => rfl
  | ⟨1, _⟩ => rfl

/-- A tile's partial sums: lane l is the sum over the rows r of the value of element (r, l). -/
theorem partial_apply (x0 x1 : Vec Ideal S8192x128 .f32) (y : S1x128.Idx) :
    k0_pay3 (F := Ideal) x0 x1 y = ∑ r : Fin 8192, kterm (x0 (ix2 r (y 1))) (x1 (ix2 r (y 1))) := by
  unfold k0_pay3
  simp only [shapeCast_self]
  refine (colsum_apply _ _ _ _ _ y).trans ?_
  rfl

/-- The accumulate step at a lane: what the block held plus the new partial sum. -/
theorem accumulate_apply (p acc : Vec Ideal S1x128 .f32) (y : S1x128.Idx) :
    k0_pay1 (F := Ideal) p acc y = acc y + p y := by
  unfold k0_pay1
  simp only [shapeCast_self]
  rfl

/-- The reset block is zero at every lane. -/
theorem reset_apply (y : S1x128.Idx) : k0_pay2 (F := Ideal) y = 0 :=
  Ideal.ofBits_zero_f32

variable (m : (ℓ : Loc nD τ sig) → Buf (Elt Ideal) ℓ)

/-- Tile `k`'s partial sums, for every natural `k` (zero beyond the grid, which has 16 points). -/
def tilePartial (c : Dev nD) (k : ℕ) (y : S1x128.Idx) : EReal :=
  if hk : k < cfg0.N then k0_pay3 (F := Ideal) (iblk m c 0 ⟨k, hk⟩) (iblk m c 1 ⟨k, hk⟩) y else 0

theorem tilePartial_of_lt (c : Dev nD) (k : ℕ) (hk : k < cfg0.N) (y : S1x128.Idx) :
    tilePartial m c k y = k0_pay3 (F := Ideal) (iblk m c 0 ⟨k, hk⟩) (iblk m c 1 ⟨k, hk⟩) y := dif_pos hk

/-- THE RUNNING SUM: after point n the accumulator holds, at each lane, the partial sums of the points
    n - n % 8, ..., n added up. -/
theorem outsAt_apply (c : Dev nD) : ∀ (n : ℕ) (h : n < cfg0.N) (y : S1x128.Idx),
    outsAt0 (F := Ideal) m c n h y = ∑ i ∈ Finset.range (n % 8 + 1), tilePartial m c (n - n % 8 + i) y
  | 0, h, y => by
    rw [outsAt0_A m c ⟨0, h⟩ rfl, out_first, accumulate_apply, reset_apply, zero_add]
    show _ = ∑ i ∈ Finset.range 1, tilePartial m c (0 - 0 % 8 + i) y
    rw [Finset.sum_range_one, tilePartial_of_lt m c _ h]
  | n + 1, h, y => by
    by_cases h0 : (n + 1) % 8 = 0
    · rw [outsAt0_A m c ⟨n + 1, h⟩ h0, out_first, accumulate_apply, reset_apply, zero_add, h0]
      show _ = ∑ i ∈ Finset.range 1, tilePartial m c (n + 1 - 0 + i) y
      rw [Finset.sum_range_one]
      show _ = tilePartial m c (n + 1) y
      rw [tilePartial_of_lt m c _ h]
    · have e1 : (n + 1) % 8 + 1 = (n % 8 + 1) + 1 := by omega
      have e2 : n + 1 - (n + 1) % 8 = n - n % 8 := by omega
      have e3 : n - n % 8 + (n % 8 + 1) = n + 1 := by omega
      rw [e1, e2, Finset.sum_range_succ _ (n % 8 + 1), e3, tilePartial_of_lt m c _ h,
        ← outsAt_apply c n (Nat.lt_of_succ_lt h) y, outsAt0_B m c ⟨n + 1, h⟩ h0, out_later, accumulate_apply]
      rfl

end Cert.KernelIdeal.Accum

end
-- ==== Proof.Sums.lean ====
/-
  The kernel's order of summation visits every element exactly once.

  The kernel adds the elements' values tile by tile: output lane L of 256 belongs to core L / 128 and to column
  L % 128; core c handles the eight tiles 8c, 8c + 1, ..., 8c + 7; tile t holds the rows 8192 t, ..., 8192 t + 8191
  of the 131072 x 128 array. The map (L, step i, row r) |-> element (8192 (8 (L / 128) + i) + r, L % 128) is a bijection
  onto the array's indices, so the triple sum is the sum over all elements. Only commutativity and associativity of
  addition are used (a commutative monoid), so the statement holds with infinite values too.
-/
import Idealize.ShloMosaic.Lib.ValueIdx

noncomputable section

namespace Cert.Sums

open Idealize.ShloMosaic Idealize.ShloMosaic.ValueIdx

/-- Row `r` of tile `t` at column `l`: element (8192 t + r, l) of the 131072 x 128 array. (Reduced modulo the row
    count so that it is an index for every natural `t`; for t < 16 nothing is reduced.) -/
def tileIdx (t : ℕ) (r : Fin 8192) (l : Fin 128) : (⟨2, ![131072, 128]⟩ : Shape).Idx :=
  ix2 ⟨(8192 * t + r.val) % 131072, Nat.mod_lt _ (by norm_num)⟩ l

/-- The column an output lane accumulates. -/
def laneOf (j : (⟨2, ![1, 256]⟩ : Shape).Idx) : Fin 128 := ⟨(j 1).val % 128, Nat.mod_lt _ (by norm_num)⟩
/-- The core an output lane belongs to. -/
def coreOf (j : (⟨2, ![1, 256]⟩ : Shape).Idx) : ℕ := (j 1).val / 128

/-- (lane, step, row) |-> the element it visits. -/
def visit (p : (⟨2, ![1, 256]⟩ : Shape).Idx × Fin 8 × Fin 8192) : (⟨2, ![131072, 128]⟩ : Shape).Idx :=
  tileIdx (8 * coreOf p.1 + p.2.1.val) p.2.2 (laneOf p.1)

theorem visit_val0 (p : (⟨2, ![1, 256]⟩ : Shape).Idx × Fin 8 × Fin 8192) :
    (visit p 0).val = (8192 * (8 * ((p.1 1).val / 128) + p.2.1.val) + p.2.2.val) % 131072 := rfl
theorem visit_val1 (p : (⟨2, ![1, 256]⟩ : Shape).Idx × Fin 8 × Fin 8192) :
    (visit p 1).val = (p.1 1).val % 128 := rfl

theorem visit_injective : Function.Injective visit := by
  rintro ⟨j, i, r⟩ ⟨j', i', r'⟩ h
  have h0 := congrArg (fun q => (q 0).val) h
  have h1 := congrArg (fun q => (q 1).val) h
  simp only [visit_val0, visit_val1] at h0 h1
  have hj := idx2_lt1 j
  have hj' := idx2_lt1 j'
  have hj0 := idx2_lt0 j
  have hj0' := idx2_lt0 j'
  have hi := i.isLt
  have hi' := i'.isLt
  have hr := r.isLt
  have hr' := r'.isLt
  have e1 : (j 1).val = (j' 1).val := by omega
  have e2 : i.val = i'.val := by omega
  have e3 : r.val = r'.val := by omega
  have ej : j = j' := by
    funext a
    match a with
    | ⟨0, _⟩ => exact Fin.ext (show (j 0).val = (j' 0).val by omega)
    | ⟨1, _⟩ => exact Fin.ext e1
  rw [ej, Fin.ext e2, Fin.ext e3]

theorem visit_surjective : Function.Surjective visit := by
  intro q
  have h0 := idx2_lt0 q
  have h1 := idx2_lt1 q
  refine ⟨(ix2 (0 : Fin 1) ⟨128 * ((q 0).val / 65536) + (q 1).val, by omega⟩,
    ⟨((q 0).val / 8192) % 8, by omega⟩, ⟨(q 0).val % 8192, by omega⟩), ?_⟩
  funext a
  match a with
  | ⟨0, _⟩ =>
    exact Fin.ext (show (8192 * (8 * ((128 * ((q 0).val / 65536) + (q 1).val) / 128) + ((q 0).val / 8192) % 8)
      + (q 0).val % 8192) % 131072 = (q 0).val by omega)
  | ⟨1, _⟩ =>
    exact Fin.ext (show (128 * ((q 0).val / 65536) + (q 1).val) % 128 = (q 1).val by omega)

/-- THE RE-INDEXING: summing over the output lanes, the eight steps of a core and the rows of a tile is summing
    over every element of the array. -/
theorem sum_tiles {M : Type*} [AddCommMonoid M] (g : (⟨2, ![131072, 128]⟩ : Shape).Idx → M) :
    ∑ j : (⟨2, ![1, 256]⟩ : Shape).Idx, ∑ i : Fin 8, ∑ r : Fin 8192, g (tileIdx (8 * coreOf j + i.val) r (laneOf j))
      = ∑ q, g q := by
  calc _ = ∑ p : (⟨2, ![1, 256]⟩ : Shape).Idx × Fin 8 × Fin 8192, g (visit p) := by
        rw [Fintype.sum_prod_type]
        refine Finset.sum_congr rfl fun j _ => ?_
        rw [Fintype.sum_prod_type]
        rfl
    _ = ∑ q, g q := Function.Bijective.sum_comp ⟨visit_injective, visit_surjective⟩ g

end Cert.Sums

end
-- ==== Proof.KernelArray.lean ====
/-
  From blocks to arrays.

  Input tile t is rows 8192 t, ..., 8192 t + 8191 of the 131072 x 128 array the host reshaped an argument into, so a
  tile's partial sum at lane l is the sum of the values of the elements (8192 t + r, l). The accumulator block of
  core c is written back once, after the last of its eight points (point 8 c + 7), to lanes 128 c, ..., 128 c + 127
  of the 1 x 256 result row; the two write-backs cover the row. So lane L of the row ends holding the sum of the
  partial sums of tiles 8 (L / 128), ..., 8 (L / 128) + 7 at column L % 128.
-/
import proofs.«112153_j12953621365099_2_alg».proof.Proof.KernelAccum
import proofs.«112153_j12953621365099_2_alg».proof.Proof.Sums
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.KernelIdeal.Accum Cert.Term Cert.Sums

variable (m : (ℓ : Loc nD τ sig) → Buf (Elt Ideal) ℓ)

/-- The printed index maps over the grid: at point t both inputs are at block row t (8 c + i = t), the output
    at block column t / 8 (the core). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val / 8 :=
  (by decide +kernel : ∀ t : Fin grid0.N, _)

/-- Row r, column l of the logits' tile at point t is element (8192 t + r, l) of the reshaped logits. -/
theorem iblk0_apply (c : Dev nD) (t : Fin cfg0.N) (r : Fin 8192) (l : Fin 128) :
    (iblk m c 0 t : Vec Ideal S8192x128 .f32) (ix2 r l) = V m c main_v0 (tileIdx t.val r l) := by
  have hN : t.val < 16 := lt_of_lt_of_eq t.isLt (show cfg0.N = 16 from N_0)
  obtain ⟨e0, e1, -⟩ := idx_facts t
  unfold iblk
  rw [View.read_apply]
  show V m c main_v0 (((cfg0.win 0).blk t).view.emb (ix2 r l)) = V m c main_v0 (tileIdx t.val r l)
  refine congrArg _ ?_
  funext a; apply Fin.ext
  match a with
  | ⟨0, _⟩ =>
    show win0_0.index t (0 : Fin 2) * 8192 + 1 * r.val = (8192 * t.val + r.val) % 131072
    have := r.isLt; omega
  | ⟨1, _⟩ =>
    show win0_0.index t (1 : Fin 2) * 128 + 1 * l.val = l.val
    omega

/-- The same for the targets' tile. -/
theorem iblk1_apply (c : Dev nD) (t : Fin cfg0.N) (r : Fin 8192) (l : Fin 128) :
    (iblk m c 1 t : Vec Ideal S8192x128 .f32) (ix2 r l) = V m c main_v1 (tileIdx t.val r l) := by
  have hN : t.val < 16 := lt_of_lt_of_eq t.isLt (show cfg0.N = 16 from N_0)
  obtain ⟨-, -, e0, e1, -⟩ := idx_facts t
  unfold iblk
  rw [View.read_apply]
  show V m c main_v1 (((cfg0.win 1).blk t).view.emb (ix2 r l)) = V m c main_v1 (tileIdx t.val r l)
  refine congrArg _ ?_
  funext a; apply Fin.ext
  match a with
  | ⟨0, _⟩ =>
    show win0_1.index t (0 : Fin 2) * 8192 + 1 * r.val = (8192 * t.val + r.val) % 131072
    have := r.isLt; omega
  | ⟨1, _⟩ =>
    show win0_1.index t (1 : Fin 2) * 128 + 1 * l.val = l.val
    omega

/-- Tile k's partial sum at a lane: the sum over the tile's rows of the elements' values. -/
theorem tilePartial_apply (c : Dev nD) (k : ℕ) (hk : k < 16) (y : S1x128.Idx) :
    tilePartial m c k y
      = ∑ r : Fin 8192, kterm (V m c main_v0 (tileIdx k r (y 1))) (V m c main_v1 (tileIdx k r (y 1))) := by
  have hk' : k < cfg0.N := lt_of_lt_of_eq hk (show cfg0.N = 16 from N_0).symm
  rw [tilePartial_of_lt m c k hk']
  refine (partial_apply _ _ y).trans ?_
  refine Finset.sum_congr rfl fun r _ => ?_
  rw [iblk0_apply m c ⟨k, hk'⟩ r (y 1), iblk1_apply m c ⟨k, hk'⟩ r (y 1)]

/-- What the 1 x 256 result row ends holding: lane L is the sum of the partial sums of its core's eight tiles
    at its column. -/
def finalRow (c : Dev nD) : S1x256.Idx → EReal :=
  fun j => ∑ i ∈ Finset.range 8, tilePartial m c (8 * coreOf j + i) (ix2 (0 : Fin 1) (laneOf j))

/-- What a flushing point writes back is its block of that row. -/
theorem flushed_eq (c : Dev nD) (t : Fin cfg0.N) (hf : (cfg0.win 2).flush t = true) :
    (dats m 0 c).flushed 2 t = ((cfg0.win 2).blk t).view.read (Elt Ideal) (finalRow m c) := by
  have h7 : t.val % 8 = 7 := (flush0_2 t).mp hf
  have hN : t.val < 16 := lt_of_lt_of_eq t.isLt (show cfg0.N = 16 from N_0)
  obtain ⟨-, -, -, -, e4, e5⟩ := idx_facts t
  show (cfg0.win 2).cut (grid0.coords t) ((dats m 0 c).after 2 t) = _
  rw [after0_2]
  funext y
  rw [View.read_apply]
  show outsAt0 (F := Ideal) m c t.val t.isLt y = finalRow m c (((cfg0.win 2).blk t).view.emb y)
  rw [outsAt_apply m c t.val t.isLt y, h7]
  unfold finalRow
  have hy1 : (y 1).val < 128 := (y 1).isLt
  have hy0 : (y 0).val < 1 := (y 0).isLt
  have ec : coreOf (((cfg0.win 2).blk t).view.emb y) = t.val / 8 := by
    show (win0_2.index t (1 : Fin 2) * 128 + 1 * (y 1).val) / 128 = t.val / 8
    rw [e5]; omega
  have el : ix2 (0 : Fin 1) (laneOf (((cfg0.win 2).blk t).view.emb y)) = y := by
    funext a
    match a with
    | ⟨0, _⟩ => exact Fin.ext (show 0 = (y 0).val by omega)
    | ⟨1, _⟩ =>
      exact Fin.ext (show (win0_2.index t (1 : Fin 2) * 128 + 1 * (y 1).val) % 128 = (y 1).val by rw [e5]; omega)
  rw [ec, el]
  refine Finset.sum_congr rfl fun i _ => ?_
  have e : t.val - 7 + i = 8 * (t.val / 8) + i := by omega
  rw [e]

/-- An index of the row is in point t's block iff each coordinate is in the block's range. -/
theorem mem_blk (t : Fin cfg0.N) (i : S1x256.Idx) :
    i ∈ ((cfg0.win 2).blk t).view.set ↔ ∀ a : Fin 2, win0_2.index t a * S1x128.size a ≤ (i a).val
      ∧ (i a).val < win0_2.index t a * S1x128.size a + S1x128.size a := by
  show i ∈ ((View.whole main_v2).slice (win0_2.rect t)).set ↔ _
  rw [View.set_slice_whole, Rect.mem_set_unit]
  exact Iff.rfl

/-- THE ROW after the run: the last point of each core covers its half. -/
theorem final (c : Dev nD) : (dats m 0 c).arrAt 2 cfg0.N = finalRow m c :=
  (dats m 0 c).arrAt_eq_of_cover 2 (finalRow m c) (flushed_eq m c) fun i => by
    have h1 : (i 1).val < 256 := (i 1).isLt
    have h0 : (i 0).val < 1 := (i 0).isLt
    have hN : cfg0.N = 16 := N_0
    have hlt : 8 * ((i 1).val / 128) + 7 < cfg0.N := by rw [hN]; omega
    obtain ⟨-, -, -, -, e4, e5⟩ := idx_facts ⟨8 * ((i 1).val / 128) + 7, hlt⟩
    refine ⟨⟨8 * ((i 1).val / 128) + 7, hlt⟩, (flush0_2 _).mpr (by show (8 * ((i 1).val / 128) + 7) % 8 = 7; omega), ?_⟩
    rw [mem_blk]
    intro a
    match a with
    | ⟨0, _⟩ =>
      show win0_2.index ⟨8 * ((i 1).val / 128) + 7, hlt⟩ (0 : Fin 2) * 1 ≤ (i 0).val
        ∧ (i 0).val < win0_2.index ⟨8 * ((i 1).val / 128) + 7, hlt⟩ (0 : Fin 2) * 1 + 1
      rw [e4]; omega
    | ⟨1, _⟩ =>
      show win0_2.index ⟨8 * ((i 1).val / 128) + 7, hlt⟩ (1 : Fin 2) * 128 ≤ (i 1).val
        ∧ (i 1).val < win0_2.index ⟨8 * ((i 1).val / 128) + 7, hlt⟩ (1 : Fin 2) * 128 + 128
      rw [e5]
      show (8 * ((i 1).val / 128) + 7) / 8 * 128 ≤ (i 1).val ∧ (i 1).val < (8 * ((i 1).val / 128) + 7) / 8 * 128 + 128
      omega

end Cert.KernelIdeal.Arr

end
-- ==== Proof.Spec.lean ====
/-
  The result both programs compute: the mean of the elements' values, that is their sum over the whole
  8 x 1 x 128 x 128 x 128 array times 1 / 2^24 (the array has 2^24 elements).
-/
import proofs.«112153_j12953621365099_2_alg».proof.Proof.Term

noncomputable section

namespace Cert.Spec

open Idealize.ShloMosaic

/-- The mean weighted loss of logits `x` against targets `t`. -/
def meanLoss (x t : (⟨5, ![8, 1, 128, 128, 128]⟩ : Shape).Idx → EReal) : EReal :=
  (∑ j, Cert.Term.kterm (x j) (t j)) * ((1 / 16777216 : ℝ) : EReal)

end Cert.Spec

end
-- ==== Proof.KernelValue.lean ====
/-
  The kernel computes the mean weighted loss.

  After the region the host adds up the 256 lanes of the result row from zero and multiplies by the word of 2^-24.
  The row's lanes, added up, are the partial sums of all sixteen tiles at all columns, that is the sum of the values
  of every element of the two reshaped arrays; and a reshape only renames indices (it is a bijection between the
  index sets), so this is the sum over the five-axis arrays the program was given.
-/
import proofs.«112153_j12953621365099_2_alg».proof.Proof.KernelArray
import proofs.«112153_j12953621365099_2_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Accum Cert.KernelIdeal.Arr Cert.Term Cert.Sums

variable (m : (ℓ : Loc nD τ sig) → Buf (Elt Ideal) ℓ) (ρ : Dev nD → PrngReg)

/-- The region finds the logits reshaped to 131072 x 128. -/
theorem V_logits (c : Dev nD) : (V m c main_v0 : S131072x128.Idx → EReal)
    = shapeCast S131072x128 (m ((c : Thread nD τ).loc main_arg0)) shapeCasts_S8x1x128x128x128_S131072x128 := by
  show StableHlo.after hostOps0 (fun b => m (c, b)) (Proc.devRef .tc main_v0) = _
  after_results
  rfl

/-- And the targets likewise. -/
theorem V_targets (c : Dev nD) : (V m c main_v1 : S131072x128.Idx → EReal)
    = shapeCast S131072x128 (m ((c : Thread nD τ).loc main_arg1)) shapeCasts_S8x1x128x128x128_S131072x128 := by
  show StableHlo.after hostOps0 (fun b => m (c, b)) (Proc.devRef .tc main_v1) = _
  after_results
  rfl

/-- The lanes of the result row add up to the sum of every element's value. -/
theorem sum_finalRow (c : Dev nD) :
    ∑ j : S1x256.Idx, finalRow m c j
      = ∑ q : S8x1x128x128x128.Idx,
          kterm (m ((c : Thread nD τ).loc main_arg0) q) (m ((c : Thread nD τ).loc main_arg1) q) := by
  have step1 : ∑ j : S1x256.Idx, finalRow m c j
      = ∑ q : S131072x128.Idx, kterm (V m c main_v0 q) (V m c main_v1 q) := by
    rw [← sum_tiles (fun q => kterm (V m c main_v0 q) (V m c main_v1 q))]
    refine Finset.sum_congr rfl fun j _ => ?_
    unfold finalRow
    rw [Finset.sum_range]
    refine Finset.sum_congr rfl fun i _ => ?_
    have hj : (j 1).val < 256 := (j 1).isLt
    have hlt : 8 * coreOf j + i.val < 16 := by unfold coreOf; have := i.isLt; omega
    rw [tilePartial_apply m c _ hlt]
  rw [step1, V_logits, V_targets]
  exact Equiv.sum_comp (Shape.reshapeEquiv shapeCasts_S8x1x128x128x128_S131072x128)
    (fun q => kterm (m ((c : Thread nD τ).loc main_arg0) q) (m ((c : Thread nD τ).loc main_arg1) q))

/-- The host's lines after the region leave the mean weighted loss in the result. -/
theorem tail_eq (c : Dev nD) :
    Pipeline.afterTail₀ cfgs (dats m) 0 (V0 m) [hostOps1] c main_v4
      = fun _ => Cert.Spec.meanLoss (m ((c : Thread nD τ).loc main_arg0)) (m ((c : Thread nD τ).loc main_arg1)) := by
  unfold Pipeline.afterTail₀
  show StableHlo.after hostOps1 _ (Proc.devRef .tc main_v4) = _
  after_results
  have hrow : Pipeline.withArrays (cfgs 0).spec c (V0 m c) (fun w => (dats m 0 c).arrAt w (cfgs 0).N)
      (Proc.tc.devRef main_v2) = finalRow m c :=
    (Pipeline.withArrays_arr spec0 launch0.win.arr_inj c _ _ 2).trans (final m c)
  rw [hrow]
  funext i
  show FloatOps.mulf (Host.reduceAdd (F := Ideal) (finalRow m c) (constant S_ .f32 0x00000000#32) reducesTo_S1x256_S_d0_1 h_S_ i)
    (constant (F := Ideal) S_ .f32 0x33800000#32 i) = _
  simp only [Host.reduceAdd, Ideal.hostReduceAdd_def]
  rw [Ideal.hostReduceAdd_total reducesTo_S1x256_S_d0_1 (fun b => b.elim0) (finalRow m c) _ i]
  show (Ideal.ofBits .f32 0x00000000#32 + ∑ j, finalRow m c j) * Ideal.ofBits .f32 0x33800000#32 = _
  rw [Ideal.ofBits_zero_f32, zero_add, Cert.Consts.ofBits_inv_count, sum_finalRow]
  rfl

/-- THE KERNEL'S RUN, read: every weakly fair execution terminates with the result at the mean weighted loss of the
    two arguments, and the arguments unchanged. -/
theorem run : θ_run defs (onTc (τ := τ) (main (F := Ideal))) ⟨m, fun _ => 0, ρ⟩ fun r => ∀ c : Dev nD,
      r.2.mem ((c : Thread nD τ).loc main_v4)
        = (fun _ => Cert.Spec.meanLoss (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v4 (Pipeline.mem_restRefs_of main_v4 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Result

end
-- ==== Proof.RefValue.lean ====
/-
  The reference computes the mean weighted loss.

  Its program is forty-five array operations; read one element at a time they are the reference's spelling of an
  element's value, then one sum over all five axes from zero, then a division by the word of 2^24, which on the
  extended reals is the product with 1 / 2^24.
-/
import proofs.«112153_j12953621365099_2_alg».proof.Proof.Gen.ReferenceIdeal.Read
import proofs.«112153_j12953621365099_2_alg».proof.Proof.Spec

noncomputable section

namespace Cert.ReferenceIdeal.RefValue

open Cert.ReferenceIdeal Cert.ReferenceIdeal.Gen Cert.ReferenceIdeal.Read Idealize.ShloMosaic Cert.Term

/-- One element of the weighted-loss array is the reference's spelling of that element's value. -/
theorem elem_apply (x0 x1 : (⟨S8x1x128x128x128, .f32⟩ : BufTy).Contents (Elt Ideal)) (i : S8x1x128x128x128.Idx) :
    val_main_v32 (F := Ideal) x0 x1 i = rterm (x0 i) (x1 i) := by
  simp only [val_main_v32_apply, val_main_v31_apply, val_main_v30_apply, val_main_v29_apply, val_main_cst_6_apply,
    val_main_v28_apply, val_main_v27_apply, val_main_cst_5_apply, val_main_v26_apply, val_main_v25_apply,
    val_main_cst_4_apply, val_main_v24_apply, val_main_v23_apply, val_main_v22_apply, val_main_v21_apply,
    val_main_v20_apply, val_main_v19_apply, val_main_v18_apply, val_main_v17_apply, val_main_v16_apply,
    val_main_cst_3_apply, val_main_v15_apply, val_main_v14_apply, val_main_v13_apply, val_main_v12_apply,
    val_main_v11_apply, val_main_v10_apply, val_main_v9_apply, val_main_v8_apply, val_main_cst_2_apply,
    val_main_v7_apply, val_main_v6_apply, val_main_cst_1_apply, val_main_v5_apply, val_main_v4_apply,
    val_main_cst_0_apply, val_main_v3_apply, val_main_v2_apply, val_main_cst_apply, val_main_v1_apply,
    val_main_v0_apply]
  rfl

/-- The reference's result is the mean weighted loss of its two arguments. -/
theorem result_eq (x0 x1 : (⟨S8x1x128x128x128, .f32⟩ : BufTy).Contents (Elt Ideal)) :
    val_main_v34 (F := Ideal) x0 x1 = fun _ => Cert.Spec.meanLoss x0 x1 := by
  funext i
  rw [val_main_v34_apply, val_main_v33_apply, val_main_cst_8_apply, val_main_cst_7_apply]
  show Ideal.div (Ideal.ofBits .f32 0x00000000#32 + ∑ j, val_main_v32 (F := Ideal) x0 x1 j) (Ideal.ofBits .f32 0x4B800000#32) = _
  rw [Ideal.ofBits_zero_f32, zero_add, Cert.Consts.ofBits_count, Ideal.div_coe (by norm_num)]
  unfold Cert.Spec.meanLoss
  refine congrArg (· * _) (Finset.sum_congr rfl fun j _ => ?_)
  rw [elem_apply, rterm_eq_kterm]

end Cert.ReferenceIdeal.RefValue

end
-- ==== Proof.lean ====
/-
  A fused weighted binary-cross-entropy mean against its plain reference, over the extended reals.

  For logits x and targets t of shape 8 x 1 x 128 x 128 x 128 (2^24 elements), both programs return the mean over all
  elements of

      (max x 0 - x t + log (1 + exp (-|x|))) * (1 + 1/2 [t > 1/2 and not p] + 1/2 [p and not (t > 1/2)]),

  p being "the prediction is positive".

  The kernel reshapes each argument to 131072 x 128, walks it in sixteen tiles of 8192 rows on a 2 x 8 grid (core,
  step), and at each point adds the tile's 128 column sums into its core's 1 x 128 accumulator block, which is zeroed
  at the core's first step and written to the core's half of a 1 x 256 row after its last. The host then adds the
  row's 256 lanes and multiplies by the binary word of 2^-24. The reference sums the five-axis array in one reduction
  and divides by the binary word of 2^24.

  Three facts join the two:
    * the element values agree: the kernel tests x > 0 where the reference tests 1 / (1 + exp (-x)) > 1/2, the same
      predicate on every extended real; the remaining differences are spellings of the same number;
    * the kernel's order of summation visits every element exactly once (the map from (lane, step, row) to an element
      of the reshaped array is a bijection, and a reshape is a bijection of index sets), and addition on the extended
      reals is commutative and associative;
    * dividing by 2^24 is multiplying by 2^-24, both words being exact.
  None of these needs the inputs to be finite, so the precondition is never opened.

  The idealization of the kernel rewrote nothing, so that conjunct is trivial; the three frame conjuncts are the
  generated frame runs (for the reference, its generated run with the result dropped).
-/
import proofs.«112153_j12953621365099_2_alg».proof.Defs
import proofs.«112153_j12953621365099_2_alg».proof.Proof.Gen.Kernel
import proofs.«112153_j12953621365099_2_alg».proof.Proof.Gen.Kernel.Skeleton
import proofs.«112153_j12953621365099_2_alg».proof.Proof.Gen.Kernel.Launch
import proofs.«112153_j12953621365099_2_alg».proof.Proof.Gen.Kernel.Points
import proofs.«112153_j12953621365099_2_alg».proof.Proof.Gen.Kernel.Frame
import proofs.«112153_j12953621365099_2_alg».proof.Proof.Gen.KernelIdeal
import proofs.«112153_j12953621365099_2_alg».proof.Proof.Gen.KernelIdeal.Skeleton
import proofs.«112153_j12953621365099_2_alg».proof.Proof.Gen.KernelIdeal.Launch
import proofs.«112153_j12953621365099_2_alg».proof.Proof.Gen.KernelIdeal.Points
import proofs.«112153_j12953621365099_2_alg».proof.Proof.Gen.KernelIdeal.Frame
import proofs.«112153_j12953621365099_2_alg».proof.Proof.Gen.ReferenceIdeal
import proofs.«112153_j12953621365099_2_alg».proof.Proof.Gen.ReferenceIdeal.Run
import proofs.«112153_j12953621365099_2_alg».proof.Proof.Gen.ReferenceIdeal.Read
import proofs.«112153_j12953621365099_2_alg».proof.Proof.Gen.Pre_finite_inputs
import proofs.«112153_j12953621365099_2_alg».proof.Proof.KernelValue
import proofs.«112153_j12953621365099_2_alg».proof.Proof.RefValue
import Idealize.ShloMosaic.Adequacy
import Idealize.ShloMosaic.Init

noncomputable section

namespace Cert.Proof

open Idealize.ShloMosaic Idealize.SL.Sem

/-- The word-level kernel runs and leaves its arguments as they were: the generated frame run. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- From memories that agree on the two arguments, the kernel ends with the mean weighted loss of its arguments
    and the reference with the mean weighted loss of its own: one number. -/
theorem algebraic : Cert.algebraic_KernelIdeal_ReferenceIdeal := by
  intro m ρ m' ρ' _ hagree
  refine ⟨fun c => fun _ => Cert.Spec.meanLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v34_eq, Cert.ReferenceIdeal.RefValue.result_eq,
    (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
